-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_15360" .f32 0x38888889#32 ((1 / 15360 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x14 : Shape := ⟨3, ![128, 256, 14]⟩
abbrev S128x256x6 : Shape := ⟨3, ![128, 256, 6]⟩
abbrev S128x128x256x6 : Shape := ⟨4, ![128, 128, 256, 6]⟩
abbrev S128x256x15 : Shape := ⟨3, ![128, 256, 15]⟩
abbrev S128x10 : Shape := ⟨2, ![128, 10]⟩
abbrev S128 : Shape := ⟨1, ![128]⟩
abbrev S_ : Shape := ⟨0, ![]⟩

class Facts : Prop where
  bcast_S_S128x256x14 : S_.BroadcastsInDim S128x256x14 (![] : Fin 0 → Fin S128x256x14.rank)
  reducesTo_S128x256x14_S_d0_1_2 : S128x256x14.ReducesTo [0, 1, 2] S_
  h_S_ : 0 < S_.numel
  bcast_S_S128x256x6 : S_.BroadcastsInDim S128x256x6 (![] : Fin 0 → Fin S128x256x6.rank)
  reducesTo_S128x256x6_S_d0_1_2 : S128x256x6.ReducesTo [0, 1, 2] S_
  bcast_S_S128x128x256x6 : S_.BroadcastsInDim S128x128x256x6 (![] : Fin 0 → Fin S128x128x256x6.rank)
  reducesTo_S128x128x256x6_S_d0_1_2_3 : S128x128x256x6.ReducesTo [0, 1, 2, 3] S_
  bcast_S_S128x256x15 : S_.BroadcastsInDim S128x256x15 (![] : Fin 0 → Fin S128x256x15.rank)
  reducesTo_S128x256x15_S_d0_1_2 : S128x256x15.ReducesTo [0, 1, 2] S_
  bcast_S_S128x10 : S_.BroadcastsInDim S128x10 (![] : Fin 0 → Fin S128x10.rank)
  reducesTo_S128x10_S_d0_1 : S128x10.ReducesTo [0, 1] S_
  slices_S128x256x15_S128x256x6_0_0_7 : S128x256x15.Slices ![0, 0, 7] S128x256x6

variable [Facts]

def fn_part1 {F : FTy → Type} [FloatOps F] (main_arg3 : FVec F S128x256x15 .f32) (main_arg4 : FVec F S128x10 .f32) (main_v13 : IVec S_ 1) (main_v16 : IVec S128x256x15 1) : IVec S_ 1 :=
  let main_c_5 : IVec S_ 1 := constantI S_ 1 1#1
  let main_v17 : IVec S_ 1 := (fun x v => Host.reduce IntOp.andi x v reducesTo_S128x256x15_S_d0_1_2 h_S_) main_v16 main_c_5
  let main_v18 : IVec S_ 1 := andi main_v13 main_v17
  let main_v19 : FVec F S128x10 .f32 := Host.absf main_arg4
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S128x256x6 .f32 := (extractStridedSlice S128x256x6 ![0, 0, 7] · slices_S128x256x15_S128x256x6_0_0_7) main_arg3
  let main_cst_8 : FVec F S_ .f32 := constant S_ .f32 0x00000000#32
  let main_v25 : FVec F S128x256x6 .f32 := broadcastInDim S128x256x6 ![] bcast_S_S128x256x6 main_cst_8
  let main_v26 : IVec S128x256x6 1 := cmpf .une main_v24 main_v25
  let main_c_9 : IVec S_ 1 := constantI S_ 1 1#1
  let main_v27 : IVec S_ 1 := (fun x v => Host.reduce IntOp.andi x v reducesTo_S128x256x6_S_d0_1_2 h_S_) main_v26 main_c_9
  let main_v28 : IVec S_ 1 := andi main_v23 main_v27
  main_v28

def fn {F : FTy → Type} [FloatOps F] (main_arg0 : FVec F S128x256x14 .f32) (main_arg1 : FVec F S128x256x6 .f32) (main_arg2 : FVec F S128x128x256x6 .f32) (main_arg3 : FVec F S128x256x15 .f32) (main_arg4 : FVec F S128x10 .f32) (main_arg5 : IVec S128 32) : IVec S_ 1 :=
  let main_v0 : FVec F S128x256x14 .f32 := Host.absf main_arg0
  let main_cst : FVec F S_ .f32 := constant S_ .f32 0x7F800000#32
  let main_v1 : FVec F S128x256x14 .f32 := broadcastInDim S128x256x14 ![] bcast_S_S128x256x14 main_cst
  let main_v2 : IVec S128x256x14 1 := cmpf .olt main_v0 main_v1
  let main_c : IVec S_ 1 := constantI S_ 1 1#1
  let main_v3 : IVec S_ 1 := (fun x v => Host.reduce IntOp.andi x v reducesTo_S128x256x14_S_d0_1_2 h_S_) main_v2 main_c
  let main_v4 : FVec F S128x256x6 .f32 := Host.absf main_arg1
  let main_cst_0 : FVec F S_ .f32 := constant S_ .f32 0x7F800000#32
  let main_v5 : FVec F S128x256x6 .f32 := broadcastInDim S128x256x6 ![] bcast_S_S128x256x6 main_cst_0
  let main_v6 : IVec S128x256x6 1 := cmpf .olt main_v4 main_v5
  let main_c_1 : IVec S_ 1 := constantI S_ 1 1#1
  let main_v7 : IVec S_ 1 := (fun x v => Host.reduce IntOp.andi x v reducesTo_S128x256x6_S_d0_1_2 h_S_) main_v6 main_c_1
  let main_v8 : IVec S_ 1 := andi main_v3 main_v7
  let main_v9 : FVec F S128x128x256x6 .f32 := Host.absf main_arg2
  let main_cst_2 : FVec F S_ .f32 := constant S_ .f32 0x7F800000#32
  let main_v10 : FVec F S128x128x256x6 .f32 := broadcastInDim S128x128x256x6 ![] bcast_S_S128x128x256x6 main_cst_2
  let main_v11 : IVec S128x128x256x6 1 := cmpf .olt main_v9 main_v10
  let main_c_3 : IVec S_ 1 := constantI S_ 1 1#1
  let main_v12 : IVec S_ 1 := (fun x v => Host.reduce IntOp.andi x v reducesTo_S128x128x256x6_S_d0_1_2_3 h_S_) main_v11 main_c_3
  let main_v13 : IVec S_ 1 := andi main_v8 main_v12
  let main_v14 : FVec F S128x256x15 .f32 := Host.absf main_arg3
  let main_cst_4 : FVec F S_ .f32 := constant S_ .f32 0x7F800000#32
  let main_v15 : FVec F S128x256x15 .f32 := broadcastInDim S128x256x15 ![] bcast_S_S128x256x15 main_cst_4
  let main_v16 : IVec S128x256x15 1 := cmpf .olt main_v14 main_v15
  fn_part1 (F := F) main_arg3 main_arg4 main_v13 main_v16
-- ==== Kernel.lean ====
abbrev S128x256x14 : Shape := ⟨3, ![128, 256, 14]⟩
abbrev S128x256x6 : Shape := ⟨3, ![128, 256, 6]⟩
abbrev S128x128x256x6 : Shape := ⟨4, ![128, 128, 256, 6]⟩
abbrev S128x256x15 : Shape := ⟨3, ![128, 256, 15]⟩
abbrev S128x10 : Shape := ⟨2, ![128, 10]⟩
abbrev S128 : Shape := ⟨1, ![128]⟩
abbrev S_ : Shape := ⟨0, ![]⟩
abbrev S128x1536 : Shape := ⟨2, ![128, 1536]⟩
abbrev S128x128x1536 : Shape := ⟨3, ![128, 128, 1536]⟩
abbrev S128x128 : Shape := ⟨2, ![128, 128]⟩
abbrev S8x128x1536 : Shape := ⟨3, ![8, 128, 1536]⟩
abbrev S8x128 : Shape := ⟨2, ![8, 128]⟩
abbrev S1x128x1536 : Shape := ⟨3, ![1, 128, 1536]⟩
abbrev S1x128x10 : Shape := ⟨3, ![1, 128, 10]⟩
abbrev S128x1x10 : Shape := ⟨3, ![128, 1, 10]⟩
abbrev S128x128x10 : Shape := ⟨3, ![128, 128, 10]⟩

abbrev nBuf : Space → Nat
  | .hbm => 37
  | .vmem => 6
  | .smem => 0
  | _ => 0

abbrev bufTy : (tb : Table) → Fin (tcTables nBuf tb) → BufTy
  | .hbm, ⟨0, _⟩ => ⟨S128x256x14, .f32⟩
  | .hbm, ⟨1, _⟩ => ⟨S128x256x6, .f32⟩
  | .hbm, ⟨2, _⟩ => ⟨S128x128x256x6, .f32⟩
  | .hbm, ⟨3, _⟩ => ⟨S128x256x15, .f32⟩
  | .hbm, ⟨4, _⟩ => ⟨S128x10, .f32⟩
  | .hbm, ⟨5, _⟩ => ⟨S128, .i32⟩
  | .hbm, ⟨6, _⟩ => ⟨S128x256x6, .f32⟩
  | .hbm, ⟨7, _⟩ => ⟨S128x256x6, .f32⟩
  | .hbm, ⟨8, _⟩ => ⟨S_, .f32⟩
  | .hbm, ⟨9, _⟩ => ⟨S128x256x6, .f32⟩
  | .hbm, ⟨10, _⟩ => ⟨S128x256x6, .f32⟩
  | .hbm, ⟨11, _⟩ => ⟨S128x1536, .f32⟩
  | .hbm, ⟨12, _⟩ => ⟨S128x1536, .f32⟩
  | .hbm, ⟨13, _⟩ => ⟨S128x128x1536, .f32⟩
  | .hbm, ⟨14, _⟩ => ⟨S128x128, .f32⟩
  | .hbm, ⟨15, _⟩ => ⟨S1x128x10, .f32⟩
  | .hbm, ⟨16, _⟩ => ⟨S128x1x10, .f32⟩
  | .hbm, ⟨17, _⟩ => ⟨S128x128x10, .f32⟩
  | .hbm, ⟨18, _⟩ => ⟨S128x128x10, .f32⟩
  | .hbm, ⟨19, _⟩ => ⟨S128x128x10, .f32⟩
  | .hbm, ⟨20, _⟩ => ⟨S128x128x10, .f32⟩
  | .hbm, ⟨21, _⟩ => ⟨S_, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8x128x1536, .f32⟩
  | .local _ .vmem, ⟨1, _⟩ => ⟨S8x128x1536, .f32⟩
  | .local _ .vmem, ⟨2, _⟩ => ⟨S128x1536, .f32⟩
  | .local _ .vmem, ⟨3, _⟩ => ⟨S128x1536, .f32⟩
  | .local _ .vmem, ⟨4, _⟩ => ⟨S8x128, .f32⟩
  | .local _ .vmem, ⟨5, _⟩ => ⟨S8x128, .f32⟩
  | _, _ => ⟨S128x256x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S128x256x15_S128x256x6_0_0_7 : S128x256x15.Slices ![0, 0, 7] S128x256x6
  bcast_S_S128x256x6 : S_.BroadcastsInDim S128x256x6 (![] : Fin 0 → Fin S128x256x6.rank)
  shapeCasts_S128x256x6_S128x1536 : S128x256x6.ShapeCasts S128x1536
  shapeCasts_S128x128x256x6_S128x128x1536 : S128x128x256x6.ShapeCasts S128x128x1536
  inb_S8x128x1536_S8x128x1536_0_0_0 : ∀ a, (![0, 0, 0] : Fin 3 → Nat) a + S8x128x1536.size a ≤ S8x128x1536.size a
  h_S8x128x1536 : 0 < S8x128x1536.numel
  shapeCasts_S8x128x1536_S8x128x1536 : S8x128x1536.ShapeCasts S8x128x1536
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  shapeCasts_S128x1536_S1x128x1536 : S128x1536.ShapeCasts S1x128x1536
  broadcasts_S1x128x1536_S8x128x1536 : S1x128x1536.Broadcasts S8x128x1536
  reduces_S8x128x1536_S8x128 : S8x128x1536.Reduces [2] S8x128
  inb_S8x128_S8x128_0_0 : ∀ a, (![0, 0] : Fin 2 → Nat) a + S8x128.size a ≤ S8x128.size a
  h_S8x128 : 0 < S8x128.numel
  bcast_S128x10_S1x128x10_1_2 : S128x10.BroadcastsInDim S1x128x10 (![1, 2] : Fin 2 → Fin S1x128x10.rank)
  bcast_S128x10_S128x1x10_0_2 : S128x10.BroadcastsInDim S128x1x10 (![0, 2] : Fin 2 → Fin S128x1x10.rank)
  bcast_S1x128x10_S128x128x10_0_1_2 : S1x128x10.BroadcastsInDim S128x128x10 (![0, 1, 2] : Fin 3 → Fin S128x128x10.rank)
  bcast_S128x1x10_S128x128x10_0_1_2 : S128x1x10.BroadcastsInDim S128x128x10 (![0, 1, 2] : Fin 3 → Fin S128x128x10.rank)
  reducesTo_S128x128x10_S128x128_d2 : S128x128x10.ReducesTo [2] S128x128
  h_S_ : 0 < S_.numel
  bcast_S_S128x128 : S_.BroadcastsInDim S128x128 (![] : Fin 0 → Fin S128x128.rank)
  transposes_S128x128_S128x128_1_0 : S128x128.Transposes [1, 0] S128x128
  reducesTo_S128x128_S_d0_1 : S128x128.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1536.size a ≤ S128x128x1536.size a
  hwx0_0 : ∀ i : grid0.Coords, EltTy.bits .f32 = 32 ∨ (Rect.block (s := S128x128x1536) S8x128x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1536.size a ≤ S128x1536.size a
  hwx0_1 : ∀ i : grid0.Coords, EltTy.bits .f32 = 32 ∨ (Rect.block (s := S128x1536) S128x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1536.size a ≤ S128x1536.size a
  hwx0_2 : ∀ i : grid0.Coords, EltTy.bits .f32 = 32 ∨ (Rect.block (s := S128x1536) S128x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

abbrev win0_0 : Pipeline.Window sig grid0 :=
  Pipeline.Window.ofSpec (Memref.whole main_v6) S8x128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x256x14 : Shape := ⟨3, ![128, 256, 14]⟩
abbrev S128x256x6 : Shape := ⟨3, ![128, 256, 6]⟩
abbrev S128x128x256x6 : Shape := ⟨4, ![128, 128, 256, 6]⟩
abbrev S128x256x15 : Shape := ⟨3, ![128, 256, 15]⟩
abbrev S128x10 : Shape := ⟨2, ![128, 10]⟩
abbrev S128 : Shape := ⟨1, ![128]⟩
abbrev S1x128x10 : Shape := ⟨3, ![1, 128, 10]⟩
abbrev S128x1x10 : Shape := ⟨3, ![128, 1, 10]⟩
abbrev S128x128x10 : Shape := ⟨3, ![128, 128, 10]⟩
abbrev S_ : Shape := ⟨0, ![]⟩
abbrev S128x128 : Shape := ⟨2, ![128, 128]⟩
abbrev S1x128x256x6 : Shape := ⟨4, ![1, 128, 256, 6]⟩

abbrev nBuf : Space → Nat
  | .hbm => 45
  | .vmem => 0
  | .smem => 0
  | _ => 0

abbrev bufTy : (tb : Table) → Fin (tcTables nBuf tb) → BufTy
  | .hbm, ⟨0, _⟩ => ⟨S128x256x14, .f32⟩
  | .hbm, ⟨1, _⟩ => ⟨S128x256x6, .f32⟩
  | .hbm, ⟨2, _⟩ => ⟨S128x128x256x6, .f32⟩
  | .hbm, ⟨3, _⟩ => ⟨S128x256x15, .f32⟩
  | .hbm, ⟨4, _⟩ => ⟨S128x10, .f32⟩
  | .hbm, ⟨5, _⟩ => ⟨S128, .i32⟩
  | .hbm, ⟨6, _⟩ => ⟨S128x256x6, .f32⟩
  | .hbm, ⟨7, _⟩ => ⟨S1x128x10, .f32⟩
  | .hbm, ⟨8, _⟩ => ⟨S128x1x10, .f32⟩
  | .hbm, ⟨9, _⟩ => ⟨S128x128x10, .f32⟩
  | .hbm, ⟨10, _⟩ => ⟨S128x128x10, .f32⟩
  | .hbm, ⟨11, _⟩ => ⟨S128x128x10, .f32⟩
  | .hbm, ⟨12, _⟩ => ⟨S128x128x10, .f32⟩
  | .hbm, ⟨13, _⟩ => ⟨S_, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x256x6, .f32⟩
  | .hbm, ⟨19, _⟩ => ⟨S128x128x256x6, .f32⟩
  | .hbm, ⟨20, _⟩ => ⟨S128x128x256x6, .f32⟩
  | .hbm, ⟨21, _⟩ => ⟨S128x128x256x6, .f32⟩
  | .hbm, ⟨22, _⟩ => ⟨S128x256x6, .f32⟩
  | .hbm, ⟨23, _⟩ => ⟨S1x128x256x6, .f32⟩
  | .hbm, ⟨24, _⟩ => ⟨S128x128x256x6, .f32⟩
  | .hbm, ⟨25, _⟩ => ⟨S128x128x256x6, .f32⟩
  | .hbm, ⟨26, _⟩ => ⟨S_, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S128x256x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S128x256x15_S128x256x6_0_0_7 : S128x256x15.Slices ![0, 0, 7] S128x256x6
  bcast_S128x10_S1x128x10_1_2 : S128x10.BroadcastsInDim S1x128x10 (![1, 2] : Fin 2 → Fin S1x128x10.rank)
  bcast_S128x10_S128x1x10_0_2 : S128x10.BroadcastsInDim S128x1x10 (![0, 2] : Fin 2 → Fin S128x1x10.rank)
  bcast_S1x128x10_S128x128x10_0_1_2 : S1x128x10.BroadcastsInDim S128x128x10 (![0, 1, 2] : Fin 3 → Fin S128x128x10.rank)
  bcast_S128x1x10_S128x128x10_0_1_2 : S128x1x10.BroadcastsInDim S128x128x10 (![0, 1, 2] : Fin 3 → Fin S128x128x10.rank)
  reducesTo_S128x128x10_S128x128_d2 : S128x128x10.ReducesTo [2] S128x128
  h_S_ : 0 < S_.numel
  bcast_S_S128x128 : S_.BroadcastsInDim S128x128 (![] : Fin 0 → Fin S128x128.rank)
  bcast_S128x256x6_S1x128x256x6_1_2_3 : S128x256x6.BroadcastsInDim S1x128x256x6 (![1, 2, 3] : Fin 3 → Fin S1x128x256x6.rank)
  bcast_S1x128x256x6_S128x128x256x6_0_1_2_3 : S1x128x256x6.BroadcastsInDim S128x128x256x6 (![0, 1, 2, 3] : Fin 4 → Fin S128x128x256x6.rank)
  reducesTo_S128x128x256x6_S128x128_d2_3 : S128x128x256x6.ReducesTo [2, 3] S128x128
  transposes_S128x128_S128x128_1_0 : S128x128.Transposes [1, 0] S128x128
  reducesTo_S128x128_S_d0_1 : S128x128.ReducesTo [0, 1] S_

variable [Facts₀]

class Facts : Prop extends Facts₀ where

variable [Facts]
-- ==== Proof.LibFlatAxes.lean ====
/-
  Two trailing axes against one flattened axis.

  A host sum over the last two axes of a rank-4 array, read at a pair of leading coordinates, is the initial
  value plus the double sum over the two trailing coordinates.  A sum over a flattened axis of extent `c * d`
  is the double sum over its quotient and remainder by `d`.  A row-major cast that merges the last two axes
  of a rank-3 or rank-4 array reads, at a flattened coordinate `k`, the operand at `(k / d, k % d)`.  And a
  one-slab array `[1, a, b]` repeated along its leading axis reads its only slab.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibFlatAxes

open Idealize.ShloMosaic Idealize.ShloMosaic.ValueIdx

/-- The host's sum over axes 2 and 3 of an `[a, b, c, d]` array, read at `(p, q)`: the initial value plus the
    sum over `t` and `u` of the operand at `(p, q, t, u)`. -/
theorem hostReduceAdd_last2 {a b c d : ℕ}
    (h' : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h' x init (ix2 p q) = init + ∑ t : Fin c, ∑ u : Fin d, x (ix4 p q t u) := by
  unfold Ideal.hostReduceAdd
  refine congrArg (init + ·) ?_
  rw [← Finset.sum_product']
  have h0 : ∀ i, (h'.drop i 0 : ℕ) = i 0 := fun i => rfl
  have h1 : ∀ i, (h'.drop i 1 : ℕ) = i 1 := fun i => rfl
  have hinv : ∀ i ∈ Finset.univ.filter (fun i => h'.drop i = ix2 p q), ix4 p q (i 2) (i 3) = i := by
    intro i hi
    have hd := (Finset.mem_filter.mp hi).2
    have e0 : (i 0 : ℕ) = p := by rw [← h0 i, hd]; rfl
    have e1 : (i 1 : ℕ) = q := by rw [← h1 i, hd]; rfl
    funext e
    match e with
    | ⟨0, _⟩ => exact Fin.ext e0.symm
    | ⟨1, _⟩ => exact Fin.ext e1.symm
    | ⟨2, _⟩ => rfl
    | ⟨3, _⟩ => rfl
  refine Finset.sum_nbij' (fun i => (i 2, i 3)) (fun tu => ix4 p q tu.1 tu.2) ?_ ?_ ?_ ?_ ?_
  · intro i _; exact Finset.mem_product.mpr ⟨Finset.mem_univ _, Finset.mem_univ _⟩
  · intro tu _
    refine Finset.mem_filter.mpr ⟨Finset.mem_univ _, funext fun e => Fin.ext ?_⟩
    match e with
    | ⟨0, _⟩ => exact h0 _
    | ⟨1, _⟩ => exact h1 _
  · exact hinv
  · intro tu _; rfl
  · intro i hi; exact congrArg x (hinv i hi).symm

/-- A sum over a flattened axis of extent `c * d` is the double sum over the quotient and the remainder by `d`. -/
theorem sum_flat {M : Type*} [AddCommMonoid M] {c d : ℕ} (f : Fin c → Fin d → M) :
    ∑ k : Fin (c * d), f k.divNat k.modNat = ∑ t : Fin c, ∑ u : Fin d, f t u := by
  rw [← Fintype.sum_prod_type']
  exact Fintype.sum_equiv finProdFinEquiv.symm _ _ fun k => rfl

/-- An `[a, c, d]` array cast to `[a, c * d]` reads, at `(p, k)`, the operand at `(p, k / d, k % d)`. -/
theorem shapeCast_merge3_apply {α : Type} {a c d n : ℕ} (hn : n = c * d) (x : (⟨3, ![a, c, d]⟩ : Shape).Idx → α)
    (h : (⟨3, ![a, c, d]⟩ : Shape).ShapeCasts ⟨2, ![a, n]⟩) (p : Fin a) (k : Fin n) :
    shapeCast ⟨2, ![a, n]⟩ x h (ix2 p k) = x (ix3 p (k.cast hn).divNat (k.cast hn).modNat) := by
  subst hn
  refine shapeCast_apply x h _ _ ?_
  rw [Shape.rowMajor_val_three, Shape.rowMajor_val_two]
  show (p.val * c + k.val / d) * d + k.val % d = p.val * (c * d) + k.val
  rw [Nat.add_mul, Nat.mul_assoc, Nat.add_assoc, Nat.div_add_mod']

/-- An `[a, b, c, d]` array cast to `[a, b, c * d]` reads, at `(p, q, k)`, the operand at `(p, q, k / d, k % d)`. -/
theorem shapeCast_merge4_apply {α : Type} {a b c d n : ℕ} (hn : n = c * d) (x : (⟨4, ![a, b, c, d]⟩ : Shape).Idx → α)
    (h : (⟨4, ![a, b, c, d]⟩ : Shape).ShapeCasts ⟨3, ![a, b, n]⟩) (p : Fin a) (q : Fin b) (k : Fin n) :
    shapeCast ⟨3, ![a, b, n]⟩ x h (ix3 p q k) = x (ix4 p q (k.cast hn).divNat (k.cast hn).modNat) := by
  subst hn
  refine shapeCast_apply x h _ _ ?_
  rw [Shape.rowMajor_val_four, Shape.rowMajor_val_three]
  show ((p.val * b + q.val) * c + k.val / d) * d + k.val % d = (p.val * b + q.val) * (c * d) + k.val
  rw [Nat.add_mul, Nat.mul_assoc, Nat.add_assoc, Nat.div_add_mod']

/-- A `[1, a, b]` array repeated to `[m, a, b]` reads, at `(r, p, q)`, its one slab at `(p, q)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (r : Fin m) (p : Fin a) (q : Fin b) :
    broadcastTo ⟨3, ![m, a, b]⟩ v h (ix3 r p q) = v (ix3 (0 : Fin 1) p q) := by
  refine broadcastTo_apply v h (ix3 r p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

end Cert.LibFlatAxes

end
-- ==== Proof.Payload.lean ====
/-
  What one grid point stores, element by element.

  The body loads a `[8, 128, 1536]` block `x0` and two whole `[128, 1536]` arrays `x1`, `x2`, and stores the
  `[8, 128]` block whose entry `(p, q)` is

      (∑ k < 1536, (x0[p, q, k] - x1[q, k])² * x2[q, k]) * (1 / 15360):

  `x1` and `x2` are viewed as one slab `[1, 128, 1536]` and repeated over the eight rows of the block, so at
  `(p, q, k)` they read `(q, k)`; the sum runs along the last axis from the zero accumulator; and the named scale
  is the rational `1 / 15360`.
-/
import proofs.«127686_j61418032333460_1_alg».proof.Proof.Gen.KernelIdeal.Skeleton
import proofs.«127686_j61418032333460_1_alg».proof.Proof.LibFlatAxes
import Idealize.ShloMosaic.PureOps.IdealRules

noncomputable section

namespace Cert.KernelIdeal.Payload

open Idealize.ShloMosaic Idealize.ShloMosaic.ValueIdx Cert.KernelIdeal Cert.KernelIdeal.Gen

/-- The named scale denotes the rational `1 / 15360`. -/
theorem inv_15360 : Named.named (F := Ideal) κ "inv_15360" (φ := .f32) 0x38888889#32 = ((1 / 15360 : ℝ) : EReal) :=
  IdealRules.named_const.ideal_named_scalar _ _ _ _ rfl

/-- A sum along the last axis of an `[8, 128, 1536]` array from the zero accumulator, read at `(p, q)`. -/
theorem lane_sum (src : FVec Ideal S8x128x1536 .f32) (h : S8x128x1536.Reduces [2] S8x128) (hφ : FKind.Formats .f32)
    (hacc : (0x00000000#32 : BitVec 32) = FKind.add.neutral .f32 hφ) (p : Fin 8) (q : Fin 128) :
    multiReduction .add [2] S8x128 src 0x00000000#32 h hφ hacc (ix2 p q) = ∑ k : Fin 1536, src (ix3 p q k) :=
  (Ideal.multiReduction_add_single src 0x00000000#32 h hφ hacc (ix2 p q)).trans
    (Finset.sum_congr rfl fun k _ => congrArg src (funext fun a => Fin.ext (by
      match a with | ⟨0, _⟩ => rfl | ⟨1, _⟩ => rfl | ⟨2, _⟩ => rfl)))

/-- A whole `[128, 1536]` array viewed as one slab and repeated over the block's rows reads `(q, k)` at `(p, q, k)`. -/
theorem slab_apply (x : FVec Ideal S128x1536 .f32) (h0 : S128x1536.ShapeCasts S128x1536)
    (h1 : S128x1536.ShapeCasts S1x128x1536) (h2 : S1x128x1536.Broadcasts S8x128x1536)
    (p : Fin 8) (q : Fin 128) (k : Fin 1536) :
    broadcastTo S8x128x1536 (shapeCast S1x128x1536 (shapeCast S128x1536 x h0) h1) h2 (ix3 p q k) = x (ix2 q k) :=
  (Cert.LibFlatAxes.broadcastTo_1ab_mab_apply _ h2 p q k).trans
    ((shapeCast_ab_1ab_apply _ h1 0 q k).trans (congrFun (shapeCast_self x h0) _))

/-- The stored block at `(p, q)`. -/
theorem pay_apply (x0 : FVec Ideal S8x128x1536 .f32) (x1 x2 : FVec Ideal S128x1536 .f32) (p : Fin 8) (q : Fin 128) :
    k0_pay1 (F := Ideal) x0 x1 x2 (ix2 p q)
      = (∑ k : Fin 1536, (x0 (ix3 p q k) - x1 (ix2 q k)) * (x0 (ix3 p q k) - x1 (ix2 q k)) * x2 (ix2 q k))
          * ((1 / 15360 : ℝ) : EReal) := by
  unfold k0_pay1
  refine (mulf_apply _ _ _).trans ?_
  refine congr (congrArg HMul.hMul ?_) inv_15360
  refine (lane_sum _ _ _ _ p q).trans (Finset.sum_congr rfl fun k _ => ?_)
  refine (mulf_apply _ _ _).trans ?_
  refine congr (congrArg HMul.hMul ((mulf_apply _ _ _).trans ?_)) (slab_apply x2 _ _ _ p q k)
  have hd : subf (shapeCast S8x128x1536 x0 shapeCasts_S8x128x1536_S8x128x1536)
      (broadcastTo S8x128x1536 (shapeCast S1x128x1536 (shapeCast S128x1536 x1 shapeCasts_S128x1536_S128x1536)
        shapeCasts_S128x1536_S1x128x1536) broadcasts_S1x128x1536_S8x128x1536) (ix3 p q k)
      = x0 (ix3 p q k) - x1 (ix2 q k) :=
    (subf_apply _ _ _).trans (congr (congrArg HSub.hSub (congrFun (shapeCast_self x0 _) _)) (slab_apply x1 _ _ _ p q k))
  exact congr (congrArg HMul.hMul hd) hd

end Cert.KernelIdeal.Payload

end
-- ==== Proof.Blocks.lean ====
/-
  From the sixteen stored blocks to the whole `[128, 128]` array.

  Grid point `t` reads rows `8 t … 8 t + 7` of the `[128, 128, 1536]` array and the two `[128, 1536]` arrays whole,
  and writes rows `8 t … 8 t + 7` of the output.  So the block it writes back is the restriction to those rows of
  ONE function of the three staged arrays, `whole`: at `(p, q)` the scaled sum over `k` of
  `(A0[p, q, k] - A1[q, k])² * A2[q, k]`.  The sixteen row bands tile the output, hence the array ends at `whole`.
-/
import proofs.«127686_j61418032333460_1_alg».proof.Proof.Gen.KernelIdeal.Frame
import proofs.«127686_j61418032333460_1_alg».proof.Proof.Payload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Payload
open Idealize.ShloMosaic.Pipeline (Dat)

/-- Entry `(p, q)` of the output, from the three staged arrays. -/
def entry (A0 : S128x128x1536.Idx → EReal) (A1 A2 : S128x1536.Idx → EReal) (p q : Fin 128) : EReal :=
  (∑ k : Fin 1536, (A0 (ix3 p q k) - A1 (ix2 q k)) * (A0 (ix3 p q k) - A1 (ix2 q k)) * A2 (ix2 q k))
    * ((1 / 15360 : ℝ) : EReal)

/-- The whole output array. -/
def whole (A0 : S128x128x1536.Idx → EReal) (A1 A2 : S128x1536.Idx → EReal) : S128x128.Idx → EReal :=
  fun i => entry A0 A1 A2 ⟨(i 0).val, (i 0).isLt⟩ ⟨(i 1).val, (i 1).isLt⟩

/-- One grid point: if the loaded block is rows `8 b …` of `A0` and the two loaded arrays are `A1`, `A2`, the stored
    block at `y` is the output's entry at row `8 b + y₀`, column `y₁`. -/
theorem point_eq (A0 : S128x128x1536.Idx → EReal) (A1 A2 : S128x1536.Idx → EReal)
    (x0 : FVec Ideal S8x128x1536 .f32) (x1 x2 : FVec Ideal S128x1536 .f32) (b : ℕ) (hb : b < 16)
    (h0 : ∀ (p : Fin 8) (q : Fin 128) (k : Fin 1536), x0 (ix3 p q k) = A0 (ix3 ⟨b * 8 + p.val, by have := p.isLt; omega⟩ q k))
    (h1 : ∀ (q : Fin 128) (k : Fin 1536), x1 (ix2 q k) = A1 (ix2 q k))
    (h2 : ∀ (q : Fin 128) (k : Fin 1536), x2 (ix2 q k) = A2 (ix2 q k))
    (y : S8x128.Idx) :
    k0_pay1 (F := Ideal) x0 x1 x2 y
      = entry A0 A1 A2 ⟨b * 8 + (y 0).val, by have : (y 0).val < 8 := (y 0).isLt; omega⟩ ⟨(y 1).val, (y 1).isLt⟩ := by
  obtain ⟨p, q, rfl⟩ : ∃ (p : Fin 8) (q : Fin 128), y = ix2 p q := ⟨y 0, y 1, eq_ix2 y⟩
  rw [pay_apply]
  unfold entry
  refine congrArg (· * _) (Finset.sum_congr rfl fun k _ => ?_)
  rw [h0, h1, h2]

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the first input moves with the output along the rows, the other two inputs stay
    at their only block, and the output's block index is the point. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) < 16 ∧ win0_3.index t (1 : Fin 2) = 0 :=
  (by decide +kernel : ∀ t : Fin grid0.N, _)

/-- Every row band is some point's. -/
theorem idx_onto : ∀ (q0 : Fin 16), ∃ t : Fin cfg0.N, win0_3.index t = ![q0.val, 0] :=
  (by decide +kernel : ∀ (q0 : Fin 16), ∃ t : Fin grid0.N, win0_3.index t = ![q0.val, 0])

variable (m : (ℓ : Loc nD τ sig) → Buf (Elt Ideal) ℓ)

/-- What point `t` writes back is block `t` of `whole` of the staged arrays. -/
theorem flushed_eq (c : Dev nD) (t : Fin cfg0.N) :
    (dats (F := Ideal) m 0 c).flushed 3 t
      = ((cfg0.win 3).blk t).view.read (Elt Ideal) (whole (V m c main_v6) (V m c main_v4) (V m c main_v5)) := by
  show (cfg0.win 3).cut (grid0.coords t) ((dats m 0 c).after 3 t) = _
  rw [after0_3]
  unfold out0_3
  rw [View.canon_unit_zero hz2]
  simp only [View.ld_unit_zero (S := S8x128x1536) hz3, View.ld_unit_zero (S := S128x1536) hz2]
  obtain ⟨e0, e1, e2, e3, e4, e5, e6, e7, e8⟩ := idx_facts t
  funext j
  refine (point_eq (V m c main_v6) (V m c main_v4) (V m c main_v5) _ _ _ (win0_3.index t (0 : Fin 2)) e7 ?_ ?_ ?_ j).trans ?_
  · intro p q k
    show V m c main_v6 (((cfg0.win 0).blk t).view.emb (ix3 p q k)) = _
    refine congrArg (V m c main_v6) (funext fun a => Fin.ext ?_)
    match a with
    | ⟨0, _⟩ => show win0_0.index t (0 : Fin 3) * 8 + 1 * p.val = win0_3.index t (0 : Fin 2) * 8 + p.val; omega
    | ⟨1, _⟩ => show win0_0.index t (1 : Fin 3) * 128 + 1 * q.val = q.val; omega
    | ⟨2, _⟩ => show win0_0.index t (2 : Fin 3) * 1536 + 1 * k.val = k.val; omega
  · intro q k
    show V m c main_v4 (((cfg0.win 1).blk t).view.emb (ix2 q k)) = _
    refine congrArg (V m c main_v4) (funext fun a => Fin.ext ?_)
    match a with
    | ⟨0, _⟩ => show win0_1.index t (0 : Fin 2) * 128 + 1 * q.val = q.val; omega
    | ⟨1, _⟩ => show win0_1.index t (1 : Fin 2) * 1536 + 1 * k.val = k.val; omega
  · intro q k
    show V m c main_v5 (((cfg0.win 2).blk t).view.emb (ix2 q k)) = _
    refine congrArg (V m c main_v5) (funext fun a => Fin.ext ?_)
    match a with
    | ⟨0, _⟩ => show win0_2.index t (0 : Fin 2) * 128 + 1 * q.val = q.val; omega
    | ⟨1, _⟩ => show win0_2.index t (1 : Fin 2) * 1536 + 1 * k.val = k.val; omega
  · show _ = whole (V m c main_v6) (V m c main_v4) (V m c main_v5) (((cfg0.win 3).blk t).view.emb j)
    unfold whole
    refine congr (congrArg (entry _ _ _) (Fin.ext ?_)) (Fin.ext ?_)
    · show win0_3.index t (0 : Fin 2) * 8 + (j 0).val = win0_3.index t (0 : Fin 2) * 8 + 1 * (j 0).val; omega
    · show (j 1).val = win0_3.index t (1 : Fin 2) * 128 + 1 * (j 1).val; omega

/-- An index of the array is in point `t`'s block iff each coordinate is in the block's range on its axis. -/
theorem mem_blk (t : Fin cfg0.N) (i : S128x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v7).slice (win0_3.rect t)).set ↔ _
  rw [View.set_slice_whole, Rect.mem_set_unit]
  exact Iff.rfl

/-- The sixteen row bands cover the output. -/
theorem cover (i : S128x128.Idx) :
    ∃ t : Fin cfg0.N, (cfg0.win 3).flush t = true ∧ i ∈ ((cfg0.win 3).blk t).view.set := by
  have hi0 : (i 0).val < 128 := (i 0).isLt
  have hi1 : (i 1).val < 128 := (i 1).isLt
  obtain ⟨t, ht⟩ := idx_onto ⟨(i 0).val / 8, by omega⟩
  have q0 : win0_3.index t (0 : Fin 2) = (i 0).val / 8 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- The output array after the run is `whole` of the staged arrays. -/
theorem final (c : Dev nD) :
    (dats (F := Ideal) m 0 c).arrAt 3 cfg0.N = whole (V m c main_v6) (V m c main_v4) (V m c main_v5) :=
  (dats m 0 c).arrAt_eq_of_cover 3 _ (fun t _ => flushed_eq m c t) cover

end Cert.KernelIdeal.Blocks

end
-- ==== Proof.SecondLaw.lean ====
/-
  The one algebraic fact between the two programs.

  One side weights each squared difference by a reciprocal `1 / w` formed beforehand, sums over a flattened
  axis and multiplies the sum by `1 / 15360`; the other divides each squared difference by `w`, sums over the two
  axes, and divides by `1536` and then by `10`.  Where `w` is not zero the two agree on every extended real:
  `a * (1 / w)` and `a / w` are both `a * w⁻¹`, and dividing by `1536` and by `10` is multiplying by
  `1 / 1536 * (1 / 10) = 1 / 15360`.  Nothing here needs the summands to be finite.  At `w = 0` the two differ
  (`0 * (1 / 0) = 0` but `0 / 0` is the bottom element), which is why the weights are assumed nonzero.
-/
import Idealize.ShloMosaic.PureOps.Ideal
import proofs.«127686_j61418032333460_1_alg».proof.Proof.LibFlatAxes

noncomputable section

namespace Cert.SecondLaw

open Idealize.ShloMosaic

/-- The patterns of `0.0`, `1.0`, `10.0` and `1536.0` denote those reals. -/
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_1536 : Ideal.ofBits .f32 0x44C00000#32 = ((1536 : ℝ) : EReal) := by
  simp [Ideal.ofBits, Ideal.ieee, -EReal.coe_mul]; norm_num

/-- A square of a nonzero extended real is not zero. -/
theorem mul_self_ne_zero' {e : EReal} (h : e ≠ 0) : e * e ≠ 0 := mul_ne_zero h h

/-- Weighting by the reciprocal is dividing, off zero. -/
theorem mul_recip_eq_div (a w : EReal) (hw : w ≠ 0) : a * Ideal.div 1 w = Ideal.div a w := by
  rw [Ideal.div, if_neg hw, one_mul, Ideal.div, if_neg hw]

/-- Dividing by `1536` and then by `10` is multiplying by `1 / 15360`, on every extended real. -/
theorem div_1536_div_10 (S : EReal) :
    Ideal.div (Ideal.div S (Ideal.ofBits .f32 0x44C00000#32)) (Ideal.ofBits .f32 0x41200000#32)
      = S * ((1 / 15360 : ℝ) : EReal) := by
  rw [ofBits_1536, ofBits_ten, Ideal.div_coe (by norm_num : (1536 : ℝ) ≠ 0), Ideal.div_coe (by norm_num : (10 : ℝ) ≠ 0),
    mul_assoc, ← EReal.coe_mul]
  norm_num

/-- The law: the reciprocal-weighted flattened sum, scaled by `1 / 15360`, is the mean of the quotients over both
    axes, divided by ten. -/
theorem weighted_mean {c d : ℕ} (sq w : Fin c → Fin d → EReal) (hw : ∀ t u, w t u ≠ 0) :
    (∑ k : Fin (c * d), sq k.divNat k.modNat * Ideal.div 1 (w k.divNat k.modNat)) * ((1 / 15360 : ℝ) : EReal)
      = Ideal.div (Ideal.div (Ideal.ofBits .f32 0x00000000#32 + ∑ t : Fin c, ∑ u : Fin d, Ideal.div (sq t u) (w t u))
          (Ideal.ofBits .f32 0x44C00000#32)) (Ideal.ofBits .f32 0x41200000#32) := by
  rw [div_1536_div_10, ofBits_zero, zero_add,
    ← Cert.LibFlatAxes.sum_flat (fun t u => Ideal.div (sq t u) (w t u))]
  refine congrArg (· * _) (Finset.sum_congr rfl fun k _ => ?_)
  exact mul_recip_eq_div _ _ (hw _ _)

end Cert.SecondLaw

end
-- ==== Proof.RefSecond.lean ====
/-
  The reference's pairwise term, read at an index.

  At `(p, q)` the reference forms, over `t < 256` and `u < 6`, the quotient of the squared difference
  `(x2[p, q, t, u] - x1[q, t, u])²` by the squared error `e[q, t, u]²`, sums the quotients from zero over both axes,
  and divides by `1536` and by `10`.  The second and fourth operands are broadcast along the first axis, so at
  `(p, q, t, u)` they read `(q, t, u)`.
-/
import proofs.«127686_j61418032333460_1_alg».proof.Proof.Gen.ReferenceIdeal.Read
import proofs.«127686_j61418032333460_1_alg».proof.Proof.LibFlatAxes
import proofs.«127686_j61418032333460_1_alg».proof.Proof.SecondLaw

noncomputable section

namespace Cert.ReferenceIdeal.RefSecond

open Idealize.ShloMosaic Idealize.ShloMosaic.ValueIdx
open Cert.ReferenceIdeal Cert.ReferenceIdeal.Gen Cert.ReferenceIdeal.Read

/-- The law of `SecondLaw.weighted_mean` with the flattened axis given by its own extent `n = c * d`. -/
theorem weighted_mean_cast {c d n : ℕ} (hn : n = c * d) (a w : Fin c → Fin d → EReal) (hw : ∀ t u, w t u ≠ 0) :
    (∑ k : Fin n, a (k.cast hn).divNat (k.cast hn).modNat * Ideal.div 1 (w (k.cast hn).divNat (k.cast hn).modNat))
        * ((1 / 15360 : ℝ) : EReal)
      = Ideal.div (Ideal.div (Ideal.ofBits .f32 0x00000000#32 + ∑ t : Fin c, ∑ u : Fin d, Ideal.div (a t u) (w t u))
          (Ideal.ofBits .f32 0x44C00000#32)) (Ideal.ofBits .f32 0x41200000#32) := by
  subst hn
  exact Cert.SecondLaw.weighted_mean a w hw

variable (x1 : (⟨S128x256x6, .f32⟩ : BufTy).Contents (Elt Ideal)) (x2 : (⟨S128x128x256x6, .f32⟩ : BufTy).Contents (Elt Ideal))
  (x3 : (⟨S128x256x15, .f32⟩ : BufTy).Contents (Elt Ideal))

/-- The quotient under the sum, at `(p, q, t, u)`. -/
theorem quotient_apply (p q : Fin 128) (t : Fin 256) (u : Fin 6) :
    val_main_v17 (F := Ideal) x1 x2 x3 (ix4 p q t u)
      = Ideal.div ((x2 (ix4 p q t u) - x1 (ix3 q t u)) * (x2 (ix4 p q t u) - x1 (ix3 q t u)))
          (val_main_v0 (F := Ideal) x3 (ix3 q t u) * val_main_v0 (F := Ideal) x3 (ix3 q t u)) := by
  have i1 : idx_main_v10 (idx_main_v11 (ix4 p q t u)) = ix3 q t u :=
    funext fun a => Fin.ext (by match a with | ⟨0, _⟩ => rfl | ⟨1, _⟩ => rfl | ⟨2, _⟩ => rfl)
  have i2 : idx_main_v15 (idx_main_v16 (ix4 p q t u)) = ix3 q t u :=
    funext fun a => Fin.ext (by match a with | ⟨0, _⟩ => rfl | ⟨1, _⟩ => rfl | ⟨2, _⟩ => rfl)
  rw [val_main_v17_apply, val_main_v13_apply, val_main_v12_apply, val_main_v11_apply, val_main_v10_apply,
    val_main_v16_apply, val_main_v15_apply, val_main_v14_apply, i1, i2]
  rfl

/-- The reference's pairwise term at `(p, q)`. -/
theorem second_apply (p q : Fin 128) :
    val_main_v22 (F := Ideal) x1 x2 x3 (ix2 p q)
      = Ideal.div (Ideal.div (Ideal.ofBits .f32 0x00000000#32 + ∑ t : Fin 256, ∑ u : Fin 6,
          Ideal.div ((x2 (ix4 p q t u) - x1 (ix3 q t u)) * (x2 (ix4 p q t u) - x1 (ix3 q t u)))
            (val_main_v0 (F := Ideal) x3 (ix3 q t u) * val_main_v0 (F := Ideal) x3 (ix3 q t u)))
          (Ideal.ofBits .f32 0x44C00000#32)) (Ideal.ofBits .f32 0x41200000#32) := by
  have h18 : val_main_v18 (F := Ideal) x1 x2 x3 (ix2 p q)
      = Ideal.ofBits .f32 0x00000000#32 + ∑ t : Fin 256, ∑ u : Fin 6, val_main_v17 (F := Ideal) x1 x2 x3 (ix4 p q t u) := by
    unfold val_main_v18
    generalize val_main_v17 (F := Ideal) x1 x2 x3 = y0
    simp only [Host.reduceAdd, Ideal.hostReduceAdd_def]
    exact Cert.LibFlatAxes.hostReduceAdd_last2 reducesTo_S128x128x256x6_S128x128_d2_3 y0 _ p q
  rw [val_main_v22_apply, val_main_v20_apply, val_main_v21_apply, val_main_v19_apply, val_main_cst_3_apply,
    val_main_cst_2_apply, h18]
  simp only [quotient_apply]
  rfl

end Cert.ReferenceIdeal.RefSecond

end
-- ==== Proof.Bridge.lean ====
/-
  The two pairwise terms are one array.

  The kernel's three staged arrays are row-major re-views of the arguments: the `[128, 128, 256, 6]` input and the
  `[128, 256, 6]` input with their last two axes merged into one of extent `1536`, and the merged view of the
  reciprocal `1 / e²` of the squared error slice.  So a flattened coordinate `k` is the pair `(k / 6, k % 6)`, the
  kernel's sum over `k` is the reference's double sum, and where no error is zero the reciprocal-weighted, scaled sum
  is the reference's twice-divided sum of quotients (`SecondLaw`).
-/
import proofs.«127686_j61418032333460_1_alg».proof.Proof.Blocks
import proofs.«127686_j61418032333460_1_alg».proof.Proof.RefSecond
import Idealize.ShloMosaic.Lib.StableHlo.Run

set_option maxRecDepth 16384

noncomputable section

namespace Cert.KernelIdeal.Staged

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-- The error slice, squared and inverted, as the host forms it before the call. -/
def recipSq (x3 : FVec Ideal S128x256x15 .f32) : FVec Ideal S128x256x6 .f32 :=
  Host.divf (F := Ideal) (broadcastInDim S128x256x6 ![] bcast_S_S128x256x6 (constant (F := Ideal) S_ .f32 0x3F800000#32))
    (mulf (extractStridedSlice S128x256x6 ![0, 0, 7] x3 slices_S128x256x15_S128x256x6_0_0_7)
      (extractStridedSlice S128x256x6 ![0, 0, 7] x3 slices_S128x256x15_S128x256x6_0_0_7))

/-- The second window's array is the second argument with its last two axes merged. -/
theorem V_v4 (c : Dev nD) : (V m c main_v4 : S128x1536.Idx → EReal)
    = shapeCast S128x1536 (m ((c : Thread nD τ).loc main_arg1)) shapeCasts_S128x256x6_S128x1536 := by
  show StableHlo.after hostOps0 (fun b => m (c, b)) (Proc.devRef .tc main_v4) = _
  after_results
  rfl

/-- The third window's array is the merged view of the reciprocal squared error. -/
theorem V_v5 (c : Dev nD) : (V m c main_v5 : S128x1536.Idx → EReal)
    = shapeCast S128x1536 (recipSq (m ((c : Thread nD τ).loc main_arg3))) shapeCasts_S128x256x6_S128x1536 := by
  show StableHlo.after hostOps0 (fun b => m (c, b)) (Proc.devRef .tc main_v5) = _
  after_results
  rfl

/-- The first window's array is the third argument with its last two axes merged. -/
theorem V_v6 (c : Dev nD) : (V m c main_v6 : S128x128x1536.Idx → EReal)
    = shapeCast S128x128x1536 (m ((c : Thread nD τ).loc main_arg2)) shapeCasts_S128x128x256x6_S128x128x1536 := by
  show StableHlo.after hostOps0 (fun b => m (c, b)) (Proc.devRef .tc main_v6) = _
  after_results
  rfl

end Cert.KernelIdeal.Staged

namespace Cert.Bridge

open Idealize.ShloMosaic Idealize.ShloMosaic.ValueIdx
open Cert.KernelIdeal Cert.KernelIdeal.Gen

/-- Where no entry of the error slice is zero, the kernel's output array is the reference's pairwise term. -/
theorem whole_eq_second (x1 : FVec Ideal S128x256x6 .f32) (x2 : FVec Ideal S128x128x256x6 .f32)
    (x3 : FVec Ideal S128x256x15 .f32)
    (hne : ∀ i, extractStridedSlice S128x256x6 ![0, 0, 7] x3 slices_S128x256x15_S128x256x6_0_0_7 i ≠ 0) :
    Cert.KernelIdeal.Blocks.whole (shapeCast S128x128x1536 x2 shapeCasts_S128x128x256x6_S128x128x1536)
        (shapeCast S128x1536 x1 shapeCasts_S128x256x6_S128x1536)
        (shapeCast S128x1536 (Cert.KernelIdeal.Staged.recipSq x3) shapeCasts_S128x256x6_S128x1536)
      = Cert.ReferenceIdeal.Read.val_main_v22 (F := Ideal) x1 x2 x3 := by
  funext i
  obtain ⟨p, q, rfl⟩ : ∃ (p q : Fin 128), i = ix2 p q := ⟨i 0, i 1, eq_ix2 i⟩
  rw [Cert.ReferenceIdeal.RefSecond.second_apply]
  have hn : 1536 = 256 * 6 := rfl
  refine Eq.trans ?_ (Cert.ReferenceIdeal.RefSecond.weighted_mean_cast hn
    (fun t u => (x2 (ix4 p q t u) - x1 (ix3 q t u)) * (x2 (ix4 p q t u) - x1 (ix3 q t u)))
    (fun t u => extractStridedSlice S128x256x6 ![0, 0, 7] x3 slices_S128x256x15_S128x256x6_0_0_7 (ix3 q t u)
      * extractStridedSlice S128x256x6 ![0, 0, 7] x3 slices_S128x256x15_S128x256x6_0_0_7 (ix3 q t u))
    (fun t u => mul_ne_zero (hne _) (hne _)))
  show Cert.KernelIdeal.Blocks.entry _ _ _ p q = _
  unfold Cert.KernelIdeal.Blocks.entry
  refine congrArg (· * _) (Finset.sum_congr rfl fun k _ => ?_)
  rw [Cert.LibFlatAxes.shapeCast_merge4_apply hn, Cert.LibFlatAxes.shapeCast_merge3_apply hn,
    Cert.LibFlatAxes.shapeCast_merge3_apply hn]
  show _ * Ideal.div (Ideal.ofBits .f32 0x3F800000#32) _ = _
  rw [Cert.SecondLaw.ofBits_one]
  rfl

end Cert.Bridge

end
-- ==== Proof.Tail.lean ====
/-
  From the pairwise term to the loss: the part both programs share.

  Given the latent samples `x4` and the `[128, 128]` pairwise term `s`, both programs form the mean squared distance
  `S[i, j]` between samples `i` and `j`, subtract half of `s + sᵀ`, take absolute values and average over all
  `128 × 128` entries.  The two programs differ only in how `s` is computed, so the loss is stated once, as a
  function of `s`, and never opened.
-/
import proofs.«127686_j61418032333460_1_alg».proof.Proof.Gen.ReferenceIdeal.Read

noncomputable section

namespace Cert.Tail

open Idealize.ShloMosaic Cert.ReferenceIdeal Cert.ReferenceIdeal.Gen Cert.ReferenceIdeal.Read

/-- The loss as a function of the samples and the pairwise term. -/
def loss (x4 : (⟨S128x10, .f32⟩ : BufTy).Contents (Elt Ideal)) (s : (⟨S128x128, .f32⟩ : BufTy).Contents (Elt Ideal)) :
    (⟨S_, .f32⟩ : BufTy).Contents (Elt Ideal) :=
  Host.divf (F := Ideal)
    (Host.reduceAdd (F := Ideal)
      (Host.absf (F := Ideal) (subf (val_main_v9 (F := Ideal) x4)
        (mulf (val_main_v25 (F := Ideal)) (addf s (transpose S128x128 [1, 0] s transposes_S128x128_S128x128_1_0)))))
      (constant (F := Ideal) S_ .f32 0x00000000#32) reducesTo_S128x128_S_d0_1 h_S_)
    (constant (F := Ideal) S_ .f32 0x46800000#32)

/-- The reference's result is the loss of its pairwise term. -/
theorem ref_eq (x1 : (⟨S128x256x6, .f32⟩ : BufTy).Contents (Elt Ideal)) (x2 : (⟨S128x128x256x6, .f32⟩ : BufTy).Contents (Elt Ideal))
    (x3 : (⟨S128x256x15, .f32⟩ : BufTy).Contents (Elt Ideal)) (x4 : (⟨S128x10, .f32⟩ : BufTy).Contents (Elt Ideal)) :
    val_main_v30 (F := Ideal) x1 x2 x3 x4 = loss x4 (val_main_v22 (F := Ideal) x1 x2 x3) := rfl

end Cert.Tail

end
-- ==== Proof.KernelRun.lean ====
/-
  The idealized kernel's run, read as a value.

  After the call the host lines compute the loss from the latent samples and from the array the call wrote; that
  array is the reference's pairwise term wherever no error entry is zero (`Bridge`), so the program's result is the
  loss of the reference's pairwise term, and its arguments end unchanged.
-/
import proofs.«127686_j61418032333460_1_alg».proof.Proof.Bridge
import proofs.«127686_j61418032333460_1_alg».proof.Proof.Tail

set_option maxRecDepth 16384

noncomputable section

namespace Cert.KernelIdeal.KernelRun

open Idealize.ShloMosaic Idealize.ShloMosaic.TcCoe Idealize.SL.Sem
open Cert.KernelIdeal Cert.KernelIdeal.Gen Idealize.ShloMosaic.StableHlo

variable (m : (ℓ : Loc nD τ sig) → Buf (Elt Ideal) ℓ) (ρ : Dev nD → PrngReg)

/-- The lines after the call compute the loss from the samples and the array the call wrote. -/
theorem tail_eq (c : Dev nD) :
    Pipeline.afterTail₀ cfgs (dats (F := Ideal) m) 0 (V0 m) [hostOps1] c main_v24
      = Cert.Tail.loss (m ((c : Thread nD τ).loc main_arg4)) ((dats (F := Ideal) m 0 c).arrAt 3 cfg0.N) := by
  have hA : Pipeline.withArrays (cfgs 0).spec c (V0 m c) (fun w => (dats (F := Ideal) m 0 c).arrAt w (cfgs 0).N)
      (Proc.devRef .tc main_v7) = (dats (F := Ideal) m 0 c).arrAt 3 cfg0.N :=
    Pipeline.withArrays_arr spec0 launch0.win.arr_inj c _ _ 3
  have h4 : Pipeline.withArrays (cfgs 0).spec c (V0 m c) (fun w => (dats (F := Ideal) m 0 c).arrAt w (cfgs 0).N)
      (Proc.devRef .tc main_arg4) = m ((c : Thread nD τ).loc main_arg4) :=
    (Pipeline.withArrays_of_ne _ c (V0 m c) _ main_arg4 (by exact (by decide : ∀ w, Pipeline.arrRef spec0 w ≠ main_arg4))).trans
      (V_main_arg4 m c)
  unfold Pipeline.afterTail₀
  show StableHlo.after hostOps1 _ (Proc.devRef .tc main_v24) = _
  after_results
  exact congrArg₂ Cert.Tail.loss h4 hA

/-- The array the call wrote is the reference's pairwise term of the arguments, where no error entry is zero. -/
theorem second_eq (c : Dev nD)
    (hne : ∀ i, (extractStridedSlice S128x256x6 ![0, 0, 7] (m ((c : Thread nD τ).loc main_arg3) : FVec Ideal S128x256x15 .f32) slices_S128x256x15_S128x256x6_0_0_7 i : EReal) ≠ 0) :
    (dats (F := Ideal) m 0 c).arrAt 3 cfg0.N
      = Cert.ReferenceIdeal.Read.val_main_v22 (F := Ideal) (m ((c : Thread nD τ).loc main_arg1))
          (m ((c : Thread nD τ).loc main_arg2)) (m ((c : Thread nD τ).loc main_arg3)) := by
  rw [Cert.KernelIdeal.Blocks.final, Cert.KernelIdeal.Staged.V_v4, Cert.KernelIdeal.Staged.V_v5, Cert.KernelIdeal.Staged.V_v6]
  exact Cert.Bridge.whole_eq_second _ _ _ hne

/-- Every weakly fair execution of the idealized kernel terminates with its result at the loss of the reference's
    pairwise term and its arguments unchanged, where no error entry is zero. -/
theorem run (hne : ∀ (c : Dev nD) i,
      (extractStridedSlice S128x256x6 ![0, 0, 7] (m ((c : Thread nD τ).loc main_arg3) : FVec Ideal S128x256x15 .f32) slices_S128x256x15_S128x256x6_0_0_7 i : EReal) ≠ 0) :
    θ_run defs (onTc (τ := τ) (main (F := Ideal))) ⟨m, fun _ => 0, ρ⟩ (fun r => ∀ c : Dev nD,
      r.2.mem ((c.tc : Thread nD τ).loc main_v24)
        = Cert.Tail.loss (m ((c : Thread nD τ).loc main_arg4))
            (Cert.ReferenceIdeal.Read.val_main_v22 (F := Ideal) (m ((c : Thread nD τ).loc main_arg1))
              (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v24 (Pipeline.mem_restRefs_of main_v24 (by decide) (by decide))).trans (tail_eq m c)).trans
        (congrArg (Cert.Tail.loss _) (second_eq m c (hne c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelRun

end
-- ==== Proof.PreNonzero.lean ====
/-
  What the precondition gives the proof.

  The precondition's last conjunct says that channels 7 … 12 of the fourth input (the errors every squared
  difference is divided by) are nowhere zero.  Read at an index it is the comparison `x ≠ 0` of the slice's entry;
  the conjunction is a one-bit `and`, and the "for all" a reduction by `and` to a single bit.
-/
import proofs.«127686_j61418032333460_1_alg».proof.Pre_finite_inputs
import Idealize.ShloMosaic.Lib.ReduceAll
import Idealize.ShloMosaic.Lib.Affine
import Idealize.ShloMosaic.Lib.ValueIdx
import Idealize.ShloMosaic.PureOps.Ideal
import proofs.«127686_j61418032333460_1_alg».proof.Proof.SecondLaw

noncomputable section

namespace Cert.PreNonzero

open Idealize.ShloMosaic Cert.Pre_finite_inputs

instance : Subsingleton S_.Idx := ⟨fun a b => funext fun d => d.elim0⟩

variable [Cert.Pre_finite_inputs.Facts]

/-- Under the precondition every entry of the error slice is nonzero. -/
theorem slice_ne_zero (x0 : FVec Ideal S128x256x14 .f32) (x1 : FVec Ideal S128x256x6 .f32)
    (x2 : FVec Ideal S128x128x256x6 .f32) (x3 : FVec Ideal S128x256x15 .f32) (x4 : FVec Ideal S128x10 .f32)
    (x5 : IVec S128 32) (h : fn (F := Ideal) x0 x1 x2 x3 x4 x5 = fun _ => 1#1)
    (hs : S128x256x15.Slices ![0, 0, 7] S128x256x6) (i : S128x256x6.Idx) :
    extractStridedSlice S128x256x6 ![0, 0, 7] x3 hs i ≠ 0 := by
  have e := congrFun h ValueIdx.ix0
  dsimp only [fn, fn_part1] at e
  have e2 := (IntOp.andi_eq_one.mp e).2
  have e3 := Host.reduce_andi_all _ _ _ _ _ e2 i
  have e4 : Ideal.cmp .une (extractStridedSlice S128x256x6 ![0, 0, 7] x3 hs i) (Ideal.ofBits .f32 0x00000000#32) = 1#1 := e3
  rw [Cert.SecondLaw.ofBits_zero] at e4
  intro h0
  rw [h0] at e4
  simp [Ideal.cmp] at e4

end Cert.PreNonzero

end
-- ==== Proof.lean ====
/-
  A similarity loss: the kernel against its reference, on the extended reals.

  Both programs return the mean over `i, j < 128` of `|S[i, j] - (s[i, j] + s[j, i]) / 2|`, where `S[i, j]` is the
  mean squared distance between latent samples `i` and `j` and `s` is the pairwise term

      s[i, j] = (1 / 15360) * ∑_{t < 256, u < 6} (y_ij[i, j, t, u] - y_i[j, t, u])² / e[j, t, u]²,

  `e` being channels 7 … 12 of the fourth input.  The reference divides each squared difference by `e²`, sums over
  `(t, u)`, and divides by `1536` and by `10`.  The kernel first forms `1 / e²` on the host, merges `(t, u)` into
  one axis of extent `1536`, and in sixteen row bands of eight rows multiplies each squared difference by the
  reciprocal, sums along the merged axis and scales by the named constant `1 / 15360`.

  Where `e` is nowhere zero — the precondition's last conjunct — these are one function on the extended reals, with
  no finiteness used: `a * (1 / w) = a / w` for `w ≠ 0`, and `(x / 1536) / 10 = x * (1 / 15360)` for every `x`
  (`SecondLaw`).  At `e = 0` they differ (`0 * (1 / 0) = 0` against `0 / 0`), which is why the conjunct is there.
  Everything after `s` is the same in both programs and is carried as one function (`Tail.loss`).

  The three frames are the generated ones; the fourth conjunct is the ledger's one entry, the named scale.
-/
import proofs.«127686_j61418032333460_1_alg».proof.Defs
import proofs.«127686_j61418032333460_1_alg».proof.Proof.Gen.Kernel
import proofs.«127686_j61418032333460_1_alg».proof.Proof.Gen.Kernel.Skeleton
import proofs.«127686_j61418032333460_1_alg».proof.Proof.Gen.Kernel.Launch
import proofs.«127686_j61418032333460_1_alg».proof.Proof.Gen.Kernel.Points
import proofs.«127686_j61418032333460_1_alg».proof.Proof.Gen.Kernel.Frame
import proofs.«127686_j61418032333460_1_alg».proof.Proof.Gen.KernelIdeal
import proofs.«127686_j61418032333460_1_alg».proof.Proof.Gen.KernelIdeal.Skeleton
import proofs.«127686_j61418032333460_1_alg».proof.Proof.Gen.KernelIdeal.Launch
import proofs.«127686_j61418032333460_1_alg».proof.Proof.Gen.KernelIdeal.Points
import proofs.«127686_j61418032333460_1_alg».proof.Proof.Gen.KernelIdeal.Frame
import proofs.«127686_j61418032333460_1_alg».proof.Proof.Gen.ReferenceIdeal
import proofs.«127686_j61418032333460_1_alg».proof.Proof.Gen.Pre_finite_inputs
import proofs.«127686_j61418032333460_1_alg».proof.Proof.Gen.ReferenceIdeal.Run
import proofs.«127686_j61418032333460_1_alg».proof.Proof.Gen.ReferenceIdeal.Read
import proofs.«127686_j61418032333460_1_alg».proof.Proof.KernelRun
import proofs.«127686_j61418032333460_1_alg».proof.Proof.PreNonzero
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the named scale denotes `1 / 15360`. -/
theorem preserves : Cert.preserves_Kernel_KernelIdeal :=
  IdealRules.named_const.statement Cert.KernelIdeal.κ "inv_15360" .f32 0x38888889#32 ((1 / 15360 : ℝ) : EReal) rfl

/-- Both idealized programs end at the loss of the reference's pairwise term of the (agreeing) arguments. -/
theorem algebraic : Cert.algebraic_KernelIdeal_ReferenceIdeal := by
  intro m ρ m' ρ' hpre hagree
  refine ⟨_, Cert.KernelIdeal.KernelRun.run m ρ (fun c i =>
    Cert.PreNonzero.slice_ne_zero _ _ _ _ _ _ (hpre c) _ i), ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2.1, (hagree c).2.2.2.1, (hagree c).2.2.2.2.1]
  exact (Cert.ReferenceIdeal.Read.val_main_v30_eq _ _ _ _).trans (Cert.Tail.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
